-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x128 : Shape := ⟨2, ![65536, 128]⟩
abbrev S512 : Shape := ⟨1, ![512]⟩
abbrev S128x512 : Shape := ⟨2, ![128, 512]⟩
abbrev S512x128 : Shape := ⟨2, ![512, 128]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x128 : S_.BroadcastsInDim S65536x128 (![] : Fin 0 → Fin S65536x128.rank)
  reducesTo_S65536x128_S_d0_1 : S65536x128.ReducesTo [0, 1] S_
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S512x128 : S_.BroadcastsInDim S512x128 (![] : Fin 0 → Fin S512x128.rank)
  reducesTo_S512x128_S_d0_1 : S512x128.ReducesTo [0, 1] S_

variable [Facts]

def fn_part1 {F : FTy → Type} [FloatOps F] (main_arg4 : FVec F S512x128 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  main_v23

def fn {F : FTy → Type} [FloatOps F] (main_arg0 : FVec F S65536x512 .f32) (main_arg1 : FVec F S65536x128 .f32) (main_arg2 : FVec F S512 .f32) (main_arg3 : FVec F S128x512 .f32) (main_arg4 : FVec F S512x128 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x128 .f32 := Host.absf main_arg1
  let main_cst_0 : FVec F S_ .f32 := constant S_ .f32 0x7F800000#32
  let main_v5 : FVec F S65536x128 .f32 := broadcastInDim S65536x128 ![] bcast_S_S65536x128 main_cst_0
  let main_v6 : IVec S65536x128 1 := cmpf .olt main_v4 main_v5
  let main_c_1 : IVec S_ 1 := constantI S_ 1 1#1
  let main_v7 : IVec S_ 1 := (fun x v => Host.reduce IntOp.andi x v reducesTo_S65536x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_v13 main_v16
-- ==== Kernel.lean ====
abbrev S65536x512 : Shape := ⟨2, ![65536, 512]⟩
abbrev S65536x128 : Shape := ⟨2, ![65536, 128]⟩
abbrev S512 : Shape := ⟨1, ![512]⟩
abbrev S128x512 : Shape := ⟨2, ![128, 512]⟩
abbrev S512x128 : Shape := ⟨2, ![512, 128]⟩
abbrev S1x512 : Shape := ⟨2, ![1, 512]⟩
abbrev S2048x512 : Shape := ⟨2, ![2048, 512]⟩
abbrev S2048x128 : Shape := ⟨2, ![2048, 128]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S65536x512, .f32⟩
  | .hbm, ⟨1, _⟩ => ⟨S65536x128, .f32⟩
  | .hbm, ⟨2, _⟩ => ⟨S512, .f32⟩
  | .hbm, ⟨3, _⟩ => ⟨S128x512, .f32⟩
  | .hbm, ⟨4, _⟩ => ⟨S512x128, .f32⟩
  | .hbm, ⟨5, _⟩ => ⟨S1x512, .f32⟩
  | .hbm, ⟨6, _⟩ => ⟨S65536x512, .f32⟩
  | .hbm, ⟨7, _⟩ => ⟨S65536x128, .f32⟩
  | .local _ .vmem, ⟨0, _⟩ => ⟨S2048x512, .f32⟩
  | .local _ .vmem, ⟨1, _⟩ => ⟨S2048x512, .f32⟩
  | .local _ .vmem, ⟨2, _⟩ => ⟨S2048x128, .f32⟩
  | .local _ .vmem, ⟨3, _⟩ => ⟨S2048x128, .f32⟩
  | .local _ .vmem, ⟨4, _⟩ => ⟨S1x512, .f32⟩
  | .local _ .vmem, ⟨5, _⟩ => ⟨S128x512, .f32⟩
  | .local _ .vmem, ⟨6, _⟩ => ⟨S512x128, .f32⟩
  | .local _ .vmem, ⟨7, _⟩ => ⟨S2048x512, .f32⟩
  | .local _ .vmem, ⟨8, _⟩ => ⟨S2048x512, .f32⟩
  | .local _ .vmem, ⟨9, _⟩ => ⟨S2048x128, .f32⟩
  | .local _ .vmem, ⟨10, _⟩ => ⟨S2048x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S512_S1x512_1 : S512.BroadcastsInDim S1x512 (![1] : Fin 1 → Fin S1x512.rank)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1x512_S1 : S1x512.Reduces [1] S1
  shapeCasts_S1_S1x1 : S1.ShapeCasts S1x1
  broadcasts_S1x1_S1x512 : S1x1.Broadcasts S1x512
  inb_S2048x512_S2048x512_0_0 : ∀ a, (![0, 0] : Fin 2 → Nat) a + S2048x512.size a ≤ S2048x512.size a
  h_S2048x512 : 0 < S2048x512.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  broadcasts_S1x512_S2048x512 : S1x512.Broadcasts S2048x512
  inb_S512x128_S512x128_0_0 : ∀ a, (![0, 0] : Fin 2 → Nat) a + S512x128.size a ≤ S512x128.size a
  h_S512x128 : 0 < S512x128.numel
  dot_S2048x128_S128x512_S2048x512_1_0_0_1_n_n_wf : DotDims.WF S2048x128 S128x512 S2048x512 [1] [0] [0] [1] [] []
  dot_S2048x512_S512x128_S2048x128_1_0_0_1_n_n_wf : DotDims.WF S2048x512 S512x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S65536x512.size a
  hwx0_5 : ∀ i : grid0.Coords, EltTy.bits .f32 = 32 ∨ (Rect.block (s := S65536x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S65536x128.size a
  hwx0_6 : ∀ i : grid0.Coords, EltTy.bits .f32 = 32 ∨ (Rect.block (s := S65536x128) S2048x128.size (cc0_transform_6 i) (hinb0_6 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_1) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x128 : Shape := ⟨2, ![65536, 128]⟩
abbrev S512 : Shape := ⟨1, ![512]⟩
abbrev S128x512 : Shape := ⟨2, ![128, 512]⟩
abbrev S512x128 : Shape := ⟨2, ![512, 128]⟩
abbrev S_ : Shape := ⟨0, ![]⟩
abbrev S1 : Shape := ⟨1, ![1]⟩
abbrev S1x512 : Shape := ⟨2, ![1, 512]⟩

abbrev nBuf : Space → Nat
  | .hbm => 24
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x128, .f32⟩
  | .hbm, ⟨2, _⟩ => ⟨S512, .f32⟩
  | .hbm, ⟨3, _⟩ => ⟨S128x512, .f32⟩
  | .hbm, ⟨4, _⟩ => ⟨S512x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S65536x512, .f32⟩
  | .hbm, ⟨23, _⟩ => ⟨S65536x128, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  reducesTo_S512_S_d0 : S512.ReducesTo [0] S_
  h_S_ : 0 < S_.numel
  bcast_S_S1 : S_.BroadcastsInDim S1 (![] : Fin 0 → Fin S1.rank)
  bcast_S1_S512_0 : S1.BroadcastsInDim S512 (![0] : Fin 1 → Fin S512.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  dot_S65536x128_S128x512_S65536x512_1_0_0_1_n_n_wf : DotDims.WF S65536x128 S128x512 S65536x512 [1] [0] [0] [1] [] []
  dot_S65536x512_S512x128_S65536x128_1_0_0_1_n_n_wf : DotDims.WF S65536x512 S512x128 S65536x128 [1] [0] [0] [1] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def dot_S65536x512_S512x128_S65536x128_1_0_0_1_n_n : DotDims S65536x512 S512x128 S65536x128 where
  lhsContracting := [1]
  rhsContracting := [0]
  lhsNonContracting := [0]
  rhsNonContracting := [1]
  lhsBatch := []
  rhsBatch := []
  wf := dot_S65536x512_S512x128_S65536x128_1_0_0_1_n_n_wf

class Facts : Prop extends Facts₀ where

variable [Facts]
-- ==== Proof.Spec.lean ====
/-
  The diagonal linear recurrence step, as one function of the five argument arrays over the extended reals.

  With `a` the 512 decay logits, `M = max(−∞, max_j a_j)` and `e_j = exp(a_j − M)`, the decay vector is the softmax
  `d_j = e_j / Σ_k e_k`. The new state is `x'[r, j] = x[r, j] · d_j + Σ_{k < 128} u[r, k] · b[k, j]` and the output is
  `y[r, q] = Σ_{k < 512} x'[r, k] · c[k, q]`. Both programs compute exactly these terms, in this association, so no
  law of the extended reals beyond `0 + s = s` is needed to join them, and finiteness of the inputs is never used.
-/
import Idealize.ShloMosaic.PureOps.Ideal
import Idealize.ShloMosaic.PureOps.Ideal.Laws
import Idealize.ShloMosaic.Lib.ValueIdx

noncomputable section

namespace Cert.RnnStep

open Idealize.ShloMosaic Idealize.ShloMosaic.ValueIdx

/-- A rank-1 index set is its one coordinate range … -/
def idxEquiv1 {n : Nat} : (⟨1, ![n]⟩ : Shape).Idx ≃ Fin n where
  toFun i := i 0
  invFun k := ix1 k
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- … and a fold of a commutative, associative operation over it is the fold over the coordinate. -/
theorem fold_idx1 {α : Type*} {n : Nat} (op : α → α → α) [Std.Commutative op] [Std.Associative op] (b : α)
    (f : (⟨1, ![n]⟩ : Shape).Idx → α) :
    Finset.univ.fold op b f = (Finset.univ : Finset (Fin n)).fold op b (fun k => f (ix1 k)) := by
  rw [← Finset.map_univ_equiv (idxEquiv1 (n := n)).symm, Finset.fold_map]
  rfl

/-- The f32 word of −∞, the value both maxima start from. -/
abbrev negInf : EReal := Ideal.ofBits .f32 0xFF800000#32

/-- The largest decay logit, taken from −∞ (and once more against −∞, as both programs do). -/
def logitMax (a : Fin 512 → EReal) : EReal := max negInf (Finset.univ.fold max negInf a)

/-- The shifted exponential `exp(a_j − M)`. -/
def shiftedExp (a : Fin 512 → EReal) (j : Fin 512) : EReal := Ideal.exp (a j - logitMax a)

/-- The softmax weight `d_j = e_j / Σ_k e_k`. -/
def decay (a : Fin 512 → EReal) (j : Fin 512) : EReal := Ideal.div (shiftedExp a j) (∑ k : Fin 512, shiftedExp a k)

/-- The new state `x'[r, j] = x[r, j] · d_j + Σ_k u[r, k] · b[k, j]`. -/
def stateNew (x : (⟨2, ![65536, 512]⟩ : Shape).Idx → EReal) (u : (⟨2, ![65536, 128]⟩ : Shape).Idx → EReal)
    (a : (⟨1, ![512]⟩ : Shape).Idx → EReal) (b : (⟨2, ![128, 512]⟩ : Shape).Idx → EReal) :
    (⟨2, ![65536, 512]⟩ : Shape).Idx → EReal :=
  fun i => x i * decay (fun j => a (ix1 j)) (i 1) + ∑ k : Fin 128, u (ix2 (i 0) k) * b (ix2 k (i 1))

/-- The output `y[r, q] = Σ_k x'[r, k] · c[k, q]`. -/
def output (x : (⟨2, ![65536, 512]⟩ : Shape).Idx → EReal) (u : (⟨2, ![65536, 128]⟩ : Shape).Idx → EReal)
    (a : (⟨1, ![512]⟩ : Shape).Idx → EReal) (b : (⟨2, ![128, 512]⟩ : Shape).Idx → EReal)
    (c : (⟨2, ![512, 128]⟩ : Shape).Idx → EReal) : (⟨2, ![65536, 128]⟩ : Shape).Idx → EReal :=
  fun i => ∑ k : Fin 512, stateNew x u a b (ix2 (i 0) k) * c (ix2 k (i 1))

/-- The same step on one block of rows: the per-block form the kernel's body computes, over a block of `n` rows. -/
def stateBlock {n : Nat} (x : (⟨2, ![n, 512]⟩ : Shape).Idx → EReal) (u : (⟨2, ![n, 128]⟩ : Shape).Idx → EReal)
    (a : Fin 512 → EReal) (b : (⟨2, ![128, 512]⟩ : Shape).Idx → EReal) (p : Fin n) (q : Fin 512) : EReal :=
  x (ix2 p q) * decay a q + ∑ k : Fin 128, u (ix2 p k) * b (ix2 k q)

end Cert.RnnStep

end
-- ==== Proof.RefValue.lean ====
/-
  The reference program's two results, read index by index over the extended reals, are the recurrence step of
  `Spec.lean`: the host's maximum over the 512 logits is the fold of `max` from −∞ over them, its sum the plain sum
  (the initial value is the zero word, and `0 + s = s`), its two `dot_general`s the sums over the contracted axis,
  and the broadcasts read the softmax weight at the column.
-/
import proofs.«179129_j56856777064872_2_alg».proof.Proof.Gen.ReferenceIdeal.Read
import proofs.«179129_j56856777064872_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.RnnStep

/-- The host's maximum of the logits is the fold of `max` from −∞ over the 512 of them: every index drops to the one
    (empty) index of the rank-0 result. -/
theorem max_logits (a : FVec Ideal S512 .f32) (i : S_.Idx) :
    val_main_v0 (F := Ideal) a i = Finset.univ.fold max negInf (fun k : Fin 512 => a (ix1 k)) := by
  unfold val_main_v0
  rw [Host.reduce_eq_fold (FloatOps.maximumf (F := Ideal) (φ := .f32)) a _ reducesTo_S512_S_d0 h_S_,
    Finset.filter_true_of_mem fun i _ => funext fun b => b.elim0]
  exact fold_idx1 (n := 512) max negInf a

/-- The shifted exponential the host computes at logit `j`. -/
theorem exp_logits (a : S512.Idx → EReal) (j : Fin 512) :
    val_main_v5 (F := Ideal) a (ix1 j) = shiftedExp (fun k => a (ix1 k)) j := by
  rw [val_main_v5_apply, val_main_v4_apply, val_main_v3_apply, val_main_v2_apply, val_main_v1_apply, max_logits]
  rfl

/-- The host's sum of the shifted exponentials. -/
theorem sum_logits (a : S512.Idx → EReal) (i : S_.Idx) :
    val_main_v6 (F := Ideal) a i = ∑ k : Fin 512, shiftedExp (fun k => a (ix1 k)) k := by
  rw [val_main_v6_apply, sum_idx1]
  show Ideal.ofBits .f32 0x00000000#32 + _ = _
  rw [Ideal.ofBits_zero_f32, zero_add]
  exact Finset.sum_congr rfl fun k _ => exp_logits a k

/-- The host's softmax weight at logit `j`. -/
theorem decay_logits (a : S512.Idx → EReal) (j : Fin 512) :
    val_main_v9 (F := Ideal) a (ix1 j) = decay (fun k => a (ix1 k)) j := by
  rw [val_main_v9_apply, val_main_v8_apply, val_main_v7_apply, sum_logits, exp_logits]
  rfl

/-- The reference's first result at row `p`, column `q` is the new state there. -/
theorem state_apply (x : S65536x512.Idx → EReal) (u : S65536x128.Idx → EReal) (a : S512.Idx → EReal) (b : S128x512.Idx → EReal)
    (p : Fin 65536) (q : Fin 512) :
    val_main_v14 (F := Ideal) x u a b (ix2 p q) = stateNew x u a b (ix2 p q) := by
  have e1 : idx_main_v10 (idx_main_v11 (ix2 p q)) = ix1 q := funext fun d => Fin.ext (by match d with | ⟨0, _⟩ => rfl)
  have e2 : ∀ k : Fin 128, lidx_main_v13 (ix2 p q) k = ix2 p k := fun k => funext fun d => Fin.ext (by
    match d with
    | ⟨0, _⟩ => rfl
    | ⟨1, _⟩ => rfl)
  have e3 : ∀ k : Fin 128, ridx_main_v13 (ix2 p q) k = ix2 k q := fun k => funext fun d => Fin.ext (by
    match d with
    | ⟨0, _⟩ => rfl
    | ⟨1, _⟩ => rfl)
  rw [val_main_v14_apply, val_main_v12_apply, val_main_v11_apply, val_main_v10_apply, val_main_v13_apply, e1, decay_logits]
  simp only [e2, e3]
  rfl

/-- The reference's first result is the new state. -/
theorem state_eq (x : S65536x512.Idx → EReal) (u : S65536x128.Idx → EReal) (a : S512.Idx → EReal) (b : S128x512.Idx → EReal) :
    val_main_v14 (F := Ideal) x u a b = stateNew x u a b := by
  refine funext fun (i : S65536x512.Idx) => ?_
  rw [eq_ix2 i]
  exact state_apply x u a b (i 0) (i 1)

/-- The reference's second result is the output. -/
theorem output_eq (x : S65536x512.Idx → EReal) (u : S65536x128.Idx → EReal) (a : S512.Idx → EReal) (b : S128x512.Idx → EReal)
    (c : S512x128.Idx → EReal) :
    val_main_v15 (F := Ideal) x u a b c = output x u a b c := by
  refine funext fun (i : S65536x128.Idx) => ?_
  obtain ⟨p, q, rfl⟩ : ∃ (p : Fin 65536) (q : Fin 128), i = ix2 p q := ⟨i 0, i 1, eq_ix2 i⟩
  rw [val_main_v15_apply, state_eq]
  refine Finset.sum_congr rfl fun k _ => ?_
  have e2 : lidx_main_v15 (ix2 p q) k = ix2 p k := funext fun d => Fin.ext (by
    match d with
    | ⟨0, _⟩ => rfl
    | ⟨1, _⟩ => rfl)
  have e3 : ridx_main_v15 (ix2 p q) k = ix2 k q := funext fun d => Fin.ext (by
    match d with
    | ⟨0, _⟩ => rfl
    | ⟨1, _⟩ => rfl)
  rw [e2, e3]

end Cert.ReferenceIdeal.RefValue

end
-- ==== Proof.Body.lean ====
/-
  What the kernel's body computes on one block of 2048 rows, read index by index over the extended reals.

  The body takes the softmax of its [1, 512] block of logits (the maximum from −∞ over the lanes, the shifted
  exponentials, their lane sum, the quotient), multiplies the block of states by it column by column, adds the
  product of the input block with `b` (a matrix product into a zero accumulator: the plain sum over the 128
  contracted coordinates), and multiplies the new states with `c` (the sum over 512 coordinates). The changes of
  float format in front of the two products are the identity here. So the two stored values are the block forms
  `stateBlock` and `Σ_k stateBlock[p, k] · c[k, q]` of `Spec.lean`.
-/
import proofs.«179129_j56856777064872_2_alg».proof.Proof.Gen.KernelIdeal.Skeleton
import proofs.«179129_j56856777064872_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx Cert.RnnStep

/-! ## The lane reductions of a [1, 512] row -/

/-- The reduced index with lane `k` put back is `(0, k)`. -/
theorem lift_lane (j : S1.Idx) (k : Fin (S1x512.size 1)) :
    reduces_S1x512_S1.lift j k = ix2 (0 : Fin 1) (⟨k.val, k.isLt⟩ : Fin 512) := by
  funext d; apply Fin.ext
  match d with
  | ⟨0, _⟩ =>
    have h : (j 0).val < 1 := (j 0).isLt
    show (j 0).val = 0
    omega
  | ⟨1, _⟩ => rfl

/-- The lane maximum from −∞ is the fold of `max` over the 512 lanes. -/
theorem laneMax_eq (v : FVec Ideal S1x512 .f32) (hφ : FKind.Formats .f32)
    (hacc : (0xFF800000#32 : BitVec 32) = FKind.maximumf.neutral .f32 hφ) (j : S1.Idx) :
    multiReduction .maximumf [1] S1 v 0xFF800000#32 reduces_S1x512_S1 hφ hacc j
      = Finset.univ.fold max negInf (fun k : Fin 512 => v (ix2 (0 : Fin 1) k)) := by
  refine (Ideal.multiReduction_maximumf_single v _ reduces_S1x512_S1 hφ hacc j).trans ?_
  exact congrArg (fun f => Finset.fold max negInf f (Finset.univ : Finset (Fin 512)))
    (funext fun k => congrArg v (lift_lane j k))

/-- The lane sum is the sum over the 512 lanes. -/
theorem laneSum_eq (v : FVec Ideal S1x512 .f32) (hφ : FKind.Formats .f32)
    (hacc : (0x00000000#32 : BitVec 32) = FKind.add.neutral .f32 hφ) (j : S1.Idx) :
    multiReduction .add [1] S1 v 0x00000000#32 reduces_S1x512_S1 hφ hacc j
      = ∑ k : Fin 512, v (ix2 (0 : Fin 1) k) := by
  refine (Ideal.multiReduction_add_single v _ reduces_S1x512_S1 hφ hacc j).trans ?_
  exact Finset.sum_congr rfl fun k _ => congrArg v (lift_lane j k)

/-- A one-entry vector recast to [1, 1] and broadcast along the row reads that entry at every lane. -/
theorem keepdims_apply (w : FVec Ideal S1 .f32) (q : Fin 512) :
    broadcastTo S1x512 (shapeCast S1x1 w shapeCasts_S1_S1x1) broadcasts_S1x1_S1x512 (ix2 (0 : Fin 1) q) = w (ix1 (0 : Fin 1)) := by
  refine (broadcastTo_apply _ broadcasts_S1x1_S1x512 (ix2 (0 : Fin 1) q) (ix2 (0 : Fin 1) (0 : Fin 1)) fun ax => ?_).trans
    (shapeCast_a_1a_apply w shapeCasts_S1_S1x1 0 0)
  match ax with
  | ⟨0, _⟩ => show 0 = if (1 : Nat) = 1 then 0 else _; rw [if_pos rfl]
  | ⟨1, _⟩ => show 0 = if (1 : Nat) = 1 then 0 else _; rw [if_pos rfl]

/-! ## The body's softmax of the logits' block -/

variable {F : FTy → Type} [FloatOps F]

/-- The largest logit of the row, as the body takes it. -/
def rowMax (v : FVec F S1x512 .f32) : FVec F S1 .f32 :=
  maximumf (broadcast S1 (Scalar.ofBits .f32 0xFF800000#32))
    (multiReduction .maximumf [1] S1 v 0xFF800000#32 reduces_S1x512_S1 (.inl rfl) rfl)

/-- A one-entry vector spread along the row. -/
def alongRow (w : FVec F S1 .f32) : FVec F S1x512 .f32 :=
  broadcastTo S1x512 (shapeCast S1x1 w shapeCasts_S1_S1x1) broadcasts_S1x1_S1x512

/-- The shifted exponentials of the row. -/
def rowExp (v : FVec F S1x512 .f32) : FVec F S1x512 .f32 := exp (subf v (alongRow (rowMax v)))

/-- Their lane sum. -/
def rowSum (e : FVec F S1x512 .f32) : FVec F S1 .f32 :=
  multiReduction .add [1] S1 e 0x00000000#32 reduces_S1x512_S1 (.inl rfl) rfl

/-- The row's softmax. -/
def rowSoftmax (v0 : Vec F S1x512 .f32) : FVec F S1x512 .f32 :=
  divf (rowExp (shapeCast S1x512 v0 shapeCasts_S1x512_S1x512))
    (alongRow (rowSum (rowExp (shapeCast S1x512 v0 shapeCasts_S1x512_S1x512))))

/-- The first stored value is the states' block times the row's softmax plus the product of the inputs' block with `b`. -/
theorem pay1_split (v0 : Vec F S1x512 .f32) (v13 : Vec F S2048x512 .f32) (v14 : Vec F S2048x128 .f32) (v16 : Vec F S128x512 .f32) :
    k0_pay1 v0 v13 v14 v16
      = addf (mulf v13 (broadcastTo S2048x512 (rowSoftmax v0) broadcasts_S1x512_S2048x512))
          (matmul dot_S2048x128_S128x512_S2048x512_1_0_0_1_n_n none (truncf .bf16 v14 bitsLt_bf16_f32) (truncf .bf16 v16 bitsLt_bf16_f32)
            (constant S2048x512 .f32 0x00000000#32)) := rfl

/-- The second stored value is the product of the first with `c`. -/
theorem pay2_split (v0 : Vec F S1x512 .f32) (v13 : Vec F S2048x512 .f32) (v14 : Vec F S2048x128 .f32) (v16 : Vec F S128x512 .f32)
    (v24 : Vec F S512x128 .f32) :
    k0_pay2 v0 v13 v14 v16 v24
      = matmul dot_S2048x512_S512x128_S2048x128_1_0_0_1_n_n none (truncf .bf16 (k0_pay1 v0 v13 v14 v16) bitsLt_bf16_f32)
          (truncf .bf16 v24 bitsLt_bf16_f32) (constant S2048x128 .f32 0x00000000#32) := rfl

/-! ## The softmax read at a lane -/

theorem rowMax_apply (v : FVec Ideal S1x512 .f32) (j : S1.Idx) :
    rowMax v j = logitMax (fun k => v (ix2 (0 : Fin 1) k)) := by
  show max negInf (multiReduction .maximumf [1] S1 v 0xFF800000#32 reduces_S1x512_S1 (.inl rfl) rfl j) = _
  exact congrArg (max negInf) (laneMax_eq v _ _ j)

theorem rowExp_apply (v : FVec Ideal S1x512 .f32) (q : Fin 512) :
    rowExp v (ix2 (0 : Fin 1) q) = shiftedExp (fun k => v (ix2 (0 : Fin 1) k)) q := by
  show Ideal.exp (v (ix2 (0 : Fin 1) q) - alongRow (F := Ideal) (rowMax v) (ix2 (0 : Fin 1) q)) = _
  unfold alongRow
  rw [keepdims_apply, rowMax_apply]
  rfl

theorem rowSum_apply (v : FVec Ideal S1x512 .f32) (j : S1.Idx) :
    rowSum (rowExp v) j = ∑ k : Fin 512, shiftedExp (fun k => v (ix2 (0 : Fin 1) k)) k := by
  refine (laneSum_eq (rowExp v) _ _ j).trans ?_
  exact Finset.sum_congr rfl fun k _ => rowExp_apply v k

theorem rowSoftmax_apply (v0 : Vec Ideal S1x512 .f32) (q : Fin 512) :
    rowSoftmax v0 (ix2 (0 : Fin 1) q) = decay (fun k => v0 (ix2 (0 : Fin 1) k)) q := by
  unfold rowSoftmax
  rw [shapeCast_self]
  show Ideal.div (rowExp (F := Ideal) v0 (ix2 (0 : Fin 1) q)) (alongRow (F := Ideal) (rowSum (rowExp (F := Ideal) v0)) (ix2 (0 : Fin 1) q)) = _
  unfold alongRow
  rw [keepdims_apply, rowSum_apply, rowExp_apply]
  rfl

/-! ## The two matrix products read at an index -/

theorem lhs1_0 (i : S2048x512.Idx) (k : dot_S2048x128_S128x512_S2048x512_1_0_0_1_n_n.contr.Idx) :
    (dot_S2048x128_S128x512_S2048x512_1_0_0_1_n_n.lhsIdx i k 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem rhs1_1 (i : S2048x512.Idx) (k : dot_S2048x128_S128x512_S2048x512_1_0_0_1_n_n.contr.Idx) :
    (dot_S2048x128_S128x512_S2048x512_1_0_0_1_n_n.rhsIdx i k 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The first product, into the zero accumulator, at row `p` and column `q`: the sum over the 128 contracted coordinates. -/
theorem matmul1_apply (l : FVec Ideal S2048x128 .bf16) (r : FVec Ideal S128x512 .bf16) (p : Fin 2048) (q : Fin 512) :
    matmul dot_S2048x128_S128x512_S2048x512_1_0_0_1_n_n none l r (constant S2048x512 .f32 0x00000000#32) (ix2 p q)
      = ∑ k : Fin 128, l (ix2 p k) * r (ix2 k q) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p q) ((contrEquiv1 dot_S2048x128_S128x512_S2048x512_1_0_0_1_n_n 128 rfl rfl).symm k) = ix2 p k := funext fun a => Fin.ext (by
    match a with
    | ⟨0, _⟩ => exact lhs1_0 _ _
    | ⟨1, _⟩ => exact (dot_S2048x128_S128x512_S2048x512_1_0_0_1_n_n.lhsIdx_val_of_single rfl _ _).trans hk)
  have er : dot_S2048x128_S128x512_S2048x512_1_0_0_1_n_n.rhsIdx (ix2 p q) ((contrEquiv1 dot_S2048x128_S128x512_S2048x512_1_0_0_1_n_n 128 rfl rfl).symm k) = ix2 k q := funext fun a => Fin.ext (by
    match a with
    | ⟨0, _⟩ => exact (dot_S2048x128_S128x512_S2048x512_1_0_0_1_n_n.rhsIdx_val_of_single rfl _ _).trans hk
    | ⟨1, _⟩ => exact rhs1_1 _ _)
  rw [el, er]

theorem lhs2_0 (i : S2048x128.Idx) (k : dot_S2048x512_S512x128_S2048x128_1_0_0_1_n_n.contr.Idx) :
    (dot_S2048x512_S512x128_S2048x128_1_0_0_1_n_n.lhsIdx i k 0).val = (i 0).val := by
  unfold DotDims.lhsIdx
  rw [dif_neg (show ¬(0 : Fin S2048x512.rank) ∈ dot_S2048x512_S512x128_S2048x128_1_0_0_1_n_n.lhsBatch by decide), dif_pos (show (0 : Fin S2048x512.rank) ∈ dot_S2048x512_S512x128_S2048x128_1_0_0_1_n_n.lhsNonContracting by decide)]
  rfl
theorem rhs2_1 (i : S2048x128.Idx) (k : dot_S2048x512_S512x128_S2048x128_1_0_0_1_n_n.contr.Idx) :
    (dot_S2048x512_S512x128_S2048x128_1_0_0_1_n_n.rhsIdx i k 1).val = (i 1).val := by
  unfold DotDims.rhsIdx
  rw [dif_neg (show ¬(1 : Fin S512x128.rank) ∈ dot_S2048x512_S512x128_S2048x128_1_0_0_1_n_n.rhsBatch by decide), dif_pos (show (1 : Fin S512x128.rank) ∈ dot_S2048x512_S512x128_S2048x128_1_0_0_1_n_n.rhsNonContracting by decide)]
  rfl

/-- The second product at row `p` and column `q`: the sum over the 512 contracted coordinates. -/
theorem matmul2_apply (l : FVec Ideal S2048x512 .bf16) (r : FVec Ideal S512x128 .bf16) (p : Fin 2048) (q : Fin 128) :
    matmul dot_S2048x512_S512x128_S2048x128_1_0_0_1_n_n none l r (constant S2048x128 .f32 0x00000000#32) (ix2 p q)
      = ∑ k : Fin 512, l (ix2 p k) * r (ix2 k q) := by
  simp only [matmul]
  rw [Ideal.matmul_constant_zero_apply, ← Equiv.sum_comp (contrEquiv1 dot_S2048x512_S512x128_S2048x128_1_0_0_1_n_n 512 rfl rfl).symm]
  refine Finset.sum_congr rfl fun k _ => ?_
  have hk := contrEquiv1_symm_val dot_S2048x512_S512x128_S2048x128_1_0_0_1_n_n 512 rfl rfl k
  have el : dot_S2048x512_S512x128_S2048x128_1_0_0_1_n_n.lhsIdx (ix2 p q) ((contrEquiv1 dot_S2048x512_S512x128_S2048x128_1_0_0_1_n_n 512 rfl rfl).symm k) = ix2 p k := funext fun a => Fin.ext (by
    match a with
    | ⟨0, _⟩ => exact lhs2_0 _ _
    | ⟨1, _⟩ => exact (dot_S2048x512_S512x128_S2048x128_1_0_0_1_n_n.lhsIdx_val_of_single rfl _ _).trans hk)
  have er : dot_S2048x512_S512x128_S2048x128_1_0_0_1_n_n.rhsIdx (ix2 p q) ((contrEquiv1 dot_S2048x512_S512x128_S2048x128_1_0_0_1_n_n 512 rfl rfl).symm k) = ix2 k q := funext fun a => Fin.ext (by
    match a with
    | ⟨0, _⟩ => exact (dot_S2048x512_S512x128_S2048x128_1_0_0_1_n_n.rhsIdx_val_of_single rfl _ _).trans hk
    | ⟨1, _⟩ => exact rhs2_1 _ _)
  rw [el, er]

/-! ## The two stored values at an index -/

/-- The first stored value at row `p`, column `q` of the block. -/
theorem pay1_apply (v0 : Vec Ideal S1x512 .f32) (v13 : Vec Ideal S2048x512 .f32) (v14 : Vec Ideal S2048x128 .f32)
    (v16 : Vec Ideal S128x512 .f32) (p : Fin 2048) (q : Fin 512) :
    k0_pay1 v0 v13 v14 v16 (ix2 p q) = stateBlock v13 v14 (fun k => v0 (ix2 (0 : Fin 1) k)) v16 p q := by
  rw [pay1_split]
  show (v13 (ix2 p q) : EReal) * broadcastTo S2048x512 (rowSoftmax (F := Ideal) v0) broadcasts_S1x512_S2048x512 (ix2 p q)
      + matmul (F := Ideal) dot_S2048x128_S128x512_S2048x512_1_0_0_1_n_n none (truncf (F := Ideal) (φ := .f32) .bf16 v14 bitsLt_bf16_f32)
          (truncf (F := Ideal) (φ := .f32) .bf16 v16 bitsLt_bf16_f32) (constant (F := Ideal) S2048x512 .f32 0x00000000#32) (ix2 p q) = _
  rw [broadcastTo_1b_ab_apply, rowSoftmax_apply, matmul1_apply]
  rfl

/-- The second stored value at row `p`, column `q` of the block. -/
theorem pay2_apply (v0 : Vec Ideal S1x512 .f32) (v13 : Vec Ideal S2048x512 .f32) (v14 : Vec Ideal S2048x128 .f32)
    (v16 : Vec Ideal S128x512 .f32) (v24 : Vec Ideal S512x128 .f32) (p : Fin 2048) (q : Fin 128) :
    k0_pay2 v0 v13 v14 v16 v24 (ix2 p q)
      = ∑ k : Fin 512, stateBlock v13 v14 (fun k => v0 (ix2 (0 : Fin 1) k)) v16 p k * v24 (ix2 k q) := by
  rw [pay2_split, matmul2_apply]
  exact Finset.sum_congr rfl fun k _ => congrArg (· * v24 (ix2 k q)) (pay1_apply v0 v13 v14 v16 p k)

end Cert.KernelIdeal.Body

end
-- ==== Proof.Blocks.lean ====
/-
  From the blocks to the two result arrays.

  Grid point `t` (of 32) stages rows `2048·t … 2048·t + 2047` of the states `x` and of the inputs `u`, and the whole of the
  logits (as a [1, 512] row), of `b` and of `c`; it writes back rows `2048·t …` of the two results. So what point `t`
  writes back is block `t` of the whole-array functions `stateNew` and `output` of the argument arrays, the 32 blocks
  cover every row (row `r` lies in block `r / 2048`), and the arrays after the run are those functions.
-/
import proofs.«179129_j56856777064872_2_alg».proof.Proof.Gen.KernelIdeal.Value
import proofs.«179129_j56856777064872_2_alg».proof.Proof.Body
import Idealize.ShloMosaic.Lib.Pipeline.Value
import Idealize.ShloMosaic.Lib.StableHlo.Run

noncomputable section

namespace Cert.KernelIdeal.Blocks

open Cert.KernelIdeal Cert.KernelIdeal.Gen Cert.KernelIdeal.Value Cert.KernelIdeal.Body
open Idealize.ShloMosaic Idealize.ShloMosaic.TcCoe Idealize.SL.Sem Idealize.ShloMosaic.StableHlo
open Idealize.ShloMosaic.ValueIdx Cert.RnnStep
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The printed index maps over the grid: the row windows move with the point, the others stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The input blocks as entries of the argument arrays -/

/-- The states' block at point `t`, entry `y`, is the states' array at row `2048·t + y₀`, column `y₁`. -/
theorem states_block (c : Dev nD) (t : Fin cfg0.N) (y : S2048x512.Idx) (K : S65536x512.Idx)
    (h0 : (K 0).val = t.val * 2048 + (y 0).val) (h1 : (K 1).val = (y 1).val) :
    (iblk m c 0 t : Vec F S2048x512 .f32) y = (m ((c : Thread nD τ).loc main_arg0) : S65536x512.Idx → Elt F .f32) K := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * (y 0).val = (K 0).val; rw [e0, h0]; omega
  | ⟨1, _⟩ => show win0_0.index t (1 : Fin 2) * 512 + 1 * (y 1).val = (K 1).val; rw [e1, h1]; omega

/-- The inputs' block at point `t`, entry `y`, is the inputs' array at row `2048·t + y₀`, column `y₁`. -/
theorem inputs_block (c : Dev nD) (t : Fin cfg0.N) (y : S2048x128.Idx) (K : S65536x128.Idx)
    (h0 : (K 0).val = t.val * 2048 + (y 0).val) (h1 : (K 1).val = (y 1).val) :
    (iblk m c 1 t : Vec F S2048x128 .f32) y = (m ((c : Thread nD τ).loc main_arg1) : S65536x128.Idx → Elt F .f32) K := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 2048 + 1 * (y 0).val = (K 0).val; rw [e0, h0]; omega
  | ⟨1, _⟩ => show win0_1.index t (1 : Fin 2) * 128 + 1 * (y 1).val = (K 1).val; rw [e1, h1]; omega

/-- The region finds the logits as one row: the host broadcasts the 512 of them to [1, 512] before the call. -/
theorem logits_entry (c : Dev nD) :
    (V m c main_v0 : S1x512.Idx → Elt F .f32)
      = broadcastInDim S1x512 ![1] bcast_S512_S1x512_1 (m ((c : Thread nD τ).loc main_arg2)) := by
  dsimp only [Gen.V, Gen.hostOps0]
  after_results

/-- The logits' block at any point, lane `y₁`, is logit `y₁`. -/
theorem logits_block (c : Dev nD) (t : Fin cfg0.N) (y : S1x512.Idx) (k : Fin 512) (hk : k.val = (y 1).val) :
    (iblk m c 2 t : Vec F S1x512 .f32) y = (m ((c : Thread nD τ).loc main_arg2) : S512.Idx → Elt F .f32) (ix1 k) := by
  obtain ⟨-, -, -, -, e0, e1, -⟩ := idx_facts t
  unfold iblk
  rw [View.read_apply]
  show V m c main_v0 _ = _
  rw [logits_entry]
  refine broadcastInDim_apply _ bcast_S512_S1x512_1 _ _ (ix1 k) fun a => ?_
  match a with
  | ⟨0, _⟩ =>
    show k.val = if (512 : Nat) = 1 then 0 else win0_2.index t (1 : Fin 2) * 512 + 1 * (y 1).val
    rw [if_neg (by decide), e1, hk]; omega

/-- The block of `b` at any point is `b`. -/
theorem b_block (c : Dev nD) (t : Fin cfg0.N) (y : S128x512.Idx) :
    (iblk m c 3 t : Vec F S128x512 .f32) y = (m ((c : Thread nD τ).loc main_arg3) : S128x512.Idx → Elt F .f32) y := by
  obtain ⟨-, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 512 + 1 * (y 1).val = (y 1).val; rw [e1]; omega

/-- The block of `c` at any point is `c`. -/
theorem c_block (c : Dev nD) (t : Fin cfg0.N) (y : S512x128.Idx) :
    (iblk m c 4 t : Vec F S512x128 .f32) y = (m ((c : Thread nD τ).loc main_arg4) : S512x128.Idx → Elt F .f32) y := by
  obtain ⟨-, -, -, -, -, -, -, -, e0, e1, -⟩ := idx_facts t
  unfold iblk
  rw [View.read_apply]
  show V m c main_arg4 _ = _
  rw [V_main_arg4]
  refine congrArg _ (funext fun a => Fin.ext ?_)
  match a with
  | ⟨0, _⟩ => show win0_4.index t (0 : Fin 2) * 512 + 1 * (y 0).val = (y 0).val; rw [e0]; omega
  | ⟨1, _⟩ => show win0_4.index t (1 : Fin 2) * 128 + 1 * (y 1).val = (y 1).val; rw [e1]; omega

/-! ## The two stored values as entries of the whole-array functions -/

/-- Over variables: when the four blocks are those rows of the argument arrays (rows from `r0` on), the first stored
    value at entry `(p, q)` of the block is the new state at row `r0 + p`, column `q`. -/
theorem state_of_blocks (X : S65536x512.Idx → EReal) (U : S65536x128.Idx → EReal) (A : S512.Idx → EReal) (B : S128x512.Idx → EReal)
    (x0 : Vec Ideal S2048x512 .f32) (x1 : Vec Ideal S2048x128 .f32) (x2 : Vec Ideal S1x512 .f32) (x3 : Vec Ideal S128x512 .f32) (r0 : Nat)
    (h0 : ∀ (y : S2048x512.Idx) (K : S65536x512.Idx), (K 0).val = r0 + (y 0).val → (K 1).val = (y 1).val → x0 y = X K)
    (h1 : ∀ (y : S2048x128.Idx) (K : S65536x128.Idx), (K 0).val = r0 + (y 0).val → (K 1).val = (y 1).val → x1 y = U K)
    (h2 : ∀ (y : S1x512.Idx) (k : Fin 512), k.val = (y 1).val → x2 y = A (ix1 k))
    (h3 : ∀ y : S128x512.Idx, x3 y = B y)
    (p : Fin 2048) (q : Fin 512) (P : Fin 65536) (hP : P.val = r0 + p.val) :
    k0_pay1 x2 x0 x1 x3 (ix2 p q) = stateNew X U A B (ix2 P q) := by
  rw [pay1_apply]
  show x0 (ix2 p q) * decay (fun k => x2 (ix2 (0 : Fin 1) k)) q + ∑ k : Fin 128, x1 (ix2 p k) * x3 (ix2 k q)
      = X (ix2 P q) * decay (fun j => A (ix1 j)) q + ∑ k : Fin 128, U (ix2 P k) * B (ix2 k q)
  have e2 : (fun k : Fin 512 => x2 (ix2 (0 : Fin 1) k)) = fun j => A (ix1 j) := funext fun k => h2 _ k rfl
  rw [e2, h0 (ix2 p q) (ix2 P q) hP rfl]
  refine congrArg _ (Finset.sum_congr rfl fun k _ => ?_)
  rw [h1 (ix2 p k) (ix2 P k) hP rfl, h3]

/-- The same at a block entry `j` and an array entry `I` with `I₀ = r0 + j₀`, `I₁ = j₁`. -/
theorem state_of_blocks_at (X : S65536x512.Idx → EReal) (U : S65536x128.Idx → EReal) (A : S512.Idx → EReal) (B : S128x512.Idx → EReal)
    (x0 : Vec Ideal S2048x512 .f32) (x1 : Vec Ideal S2048x128 .f32) (x2 : Vec Ideal S1x512 .f32) (x3 : Vec Ideal S128x512 .f32) (r0 : Nat)
    (h0 : ∀ (y : S2048x512.Idx) (K : S65536x512.Idx), (K 0).val = r0 + (y 0).val → (K 1).val = (y 1).val → x0 y = X K)
    (h1 : ∀ (y : S2048x128.Idx) (K : S65536x128.Idx), (K 0).val = r0 + (y 0).val → (K 1).val = (y 1).val → x1 y = U K)
    (h2 : ∀ (y : S1x512.Idx) (k : Fin 512), k.val = (y 1).val → x2 y = A (ix1 k))
    (h3 : ∀ y : S128x512.Idx, x3 y = B y)
    (j : S2048x512.Idx) (I : S65536x512.Idx) (hI0 : (I 0).val = r0 + (j 0).val) (hI1 : (I 1).val = (j 1).val) :
    k0_pay1 x2 x0 x1 x3 j = stateNew X U A B I := by
  have hlt : (I 0).val < 65536 := (I 0).isLt
  have hI : I = ix2 (⟨r0 + (j 0).val, by omega⟩ : Fin 65536) (j 1) := funext fun a => Fin.ext (by
    match a with
    | ⟨0, _⟩ => exact hI0
    | ⟨1, _⟩ => exact hI1)
  exact (congrArg (k0_pay1 x2 x0 x1 x3) (eq_ix2 j)).trans
    ((state_of_blocks X U A B x0 x1 x2 x3 r0 h0 h1 h2 h3 (j 0) (j 1) _ rfl).trans (congrArg (stateNew X U A B) hI.symm))

/-- Over variables: the second stored value at entry `(p, q)` of the block is the output at row `r0 + p`, column `q`. -/
theorem output_of_blocks (X : S65536x512.Idx → EReal) (U : S65536x128.Idx → EReal) (A : S512.Idx → EReal) (B : S128x512.Idx → EReal)
    (C : S512x128.Idx → EReal)
    (x0 : Vec Ideal S2048x512 .f32) (x1 : Vec Ideal S2048x128 .f32) (x2 : Vec Ideal S1x512 .f32) (x3 : Vec Ideal S128x512 .f32)
    (x4 : Vec Ideal S512x128 .f32) (r0 : Nat)
    (h0 : ∀ (y : S2048x512.Idx) (K : S65536x512.Idx), (K 0).val = r0 + (y 0).val → (K 1).val = (y 1).val → x0 y = X K)
    (h1 : ∀ (y : S2048x128.Idx) (K : S65536x128.Idx), (K 0).val = r0 + (y 0).val → (K 1).val = (y 1).val → x1 y = U K)
    (h2 : ∀ (y : S1x512.Idx) (k : Fin 512), k.val = (y 1).val → x2 y = A (ix1 k))
    (h3 : ∀ y : S128x512.Idx, x3 y = B y) (h4 : ∀ y : S512x128.Idx, x4 y = C y)
    (p : Fin 2048) (q : Fin 128) (P : Fin 65536) (hP : P.val = r0 + p.val) :
    k0_pay2 x2 x0 x1 x3 x4 (ix2 p q) = output X U A B C (ix2 P q) := by
  rw [pay2_apply]
  show _ = ∑ k : Fin 512, stateNew X U A B (ix2 P k) * C (ix2 k q)
  refine Finset.sum_congr rfl fun k _ => ?_
  rw [← pay1_apply, state_of_blocks X U A B x0 x1 x2 x3 r0 h0 h1 h2 h3 p k P hP, h4]

/-- The same at a block entry `j` and an array entry `I` with `I₀ = r0 + j₀`, `I₁ = j₁`. -/
theorem output_of_blocks_at (X : S65536x512.Idx → EReal) (U : S65536x128.Idx → EReal) (A : S512.Idx → EReal) (B : S128x512.Idx → EReal)
    (C : S512x128.Idx → EReal)
    (x0 : Vec Ideal S2048x512 .f32) (x1 : Vec Ideal S2048x128 .f32) (x2 : Vec Ideal S1x512 .f32) (x3 : Vec Ideal S128x512 .f32)
    (x4 : Vec Ideal S512x128 .f32) (r0 : Nat)
    (h0 : ∀ (y : S2048x512.Idx) (K : S65536x512.Idx), (K 0).val = r0 + (y 0).val → (K 1).val = (y 1).val → x0 y = X K)
    (h1 : ∀ (y : S2048x128.Idx) (K : S65536x128.Idx), (K 0).val = r0 + (y 0).val → (K 1).val = (y 1).val → x1 y = U K)
    (h2 : ∀ (y : S1x512.Idx) (k : Fin 512), k.val = (y 1).val → x2 y = A (ix1 k))
    (h3 : ∀ y : S128x512.Idx, x3 y = B y) (h4 : ∀ y : S512x128.Idx, x4 y = C y)
    (j : S2048x128.Idx) (I : S65536x128.Idx) (hI0 : (I 0).val = r0 + (j 0).val) (hI1 : (I 1).val = (j 1).val) :
    k0_pay2 x2 x0 x1 x3 x4 j = output X U A B C I := by
  have hlt : (I 0).val < 65536 := (I 0).isLt
  have hI : I = ix2 (⟨r0 + (j 0).val, by omega⟩ : Fin 65536) (j 1) := funext fun a => Fin.ext (by
    match a with
    | ⟨0, _⟩ => exact hI0
    | ⟨1, _⟩ => exact hI1)
  exact (congrArg (k0_pay2 x2 x0 x1 x3 x4) (eq_ix2 j)).trans
    ((output_of_blocks X U A B C x0 x1 x2 x3 x4 r0 h0 h1 h2 h3 h4 (j 0) (j 1) _ rfl).trans (congrArg (output X U A B C) hI.symm))

/-! ## What a point writes back, the cover, the arrays after the run -/

section AtIdeal

variable (m : (ℓ : Loc nD τ sig) → Buf (Elt Ideal) ℓ) (ρ : Dev nD → PrngReg)

/-- Point `t` writes back block `t` of the new state of the argument arrays. -/
theorem flushed5_eq (c : Dev nD) (t : Fin cfg0.N) :
    (dats m 0 c).flushed 5 t = ((cfg0.win 5).blk t).view.read (Elt Ideal)
      (stateNew (m ((c : Thread nD τ).loc main_arg0)) (m ((c : Thread nD τ).loc main_arg1)) (m ((c : Thread nD τ).loc main_arg2)) (m ((c : Thread nD τ).loc main_arg3))) := by
  obtain ⟨-, -, -, -, -, -, -, -, -, -, e0, e1, -⟩ := idx_facts t
  rw [flushed5]
  unfold out0_5
  rw [View.canon_unit_zero hz]
  simp only [View.ld_unit_zero (S := S1x512) hz, View.ld_unit_zero (S := S2048x512) hz, View.ld_unit_zero (S := S2048x128) hz,
    View.ld_unit_zero (S := S128x512) hz]
  funext j
  show k0_pay1 (iblk m c 2 t) (iblk m c 0 t) (iblk m c 1 t) (iblk m c 3 t) j
      = stateNew (m ((c : Thread nD τ).loc main_arg0)) (m ((c : Thread nD τ).loc main_arg1)) (m ((c : Thread nD τ).loc main_arg2)) (m ((c : Thread nD τ).loc main_arg3)) (((cfg0.win 5).blk t).view.emb j)
  refine state_of_blocks_at (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (t.val * 2048)
    (fun y K a b => states_block m c t y K a b) (fun y K a b => inputs_block m c t y K a b)
    (fun y k hk => logits_block m c t y k hk) (fun y => b_block m c t y) j (((cfg0.win 5).blk t).view.emb j) ?_ ?_
  · show win0_5.index t (0 : Fin 2) * 2048 + 1 * (j 0).val = t.val * 2048 + (j 0).val
    rw [e0]; omega
  · show win0_5.index t (1 : Fin 2) * 512 + 1 * (j 1).val = (j 1).val
    rw [e1]; omega

/-- Point `t` writes back block `t` of the output of the argument arrays. -/
theorem flushed6_eq (c : Dev nD) (t : Fin cfg0.N) :
    (dats m 0 c).flushed 6 t = ((cfg0.win 6).blk t).view.read (Elt Ideal)
      (output (m ((c : Thread nD τ).loc main_arg0)) (m ((c : Thread nD τ).loc main_arg1)) (m ((c : Thread nD τ).loc main_arg2)) (m ((c : Thread nD τ).loc main_arg3)) (m ((c : Thread nD τ).loc main_arg4))) := by
  obtain ⟨-, -, -, -, -, -, -, -, -, -, -, -, e0, e1⟩ := idx_facts t
  rw [flushed6]
  unfold out0_6
  rw [View.canon_unit_zero hz]
  simp only [View.ld_unit_zero (S := S1x512) hz, View.ld_unit_zero (S := S2048x512) hz, View.ld_unit_zero (S := S2048x128) hz,
    View.ld_unit_zero (S := S128x512) hz, View.ld_unit_zero (S := S512x128) hz]
  funext j
  show k0_pay2 (iblk m c 2 t) (iblk m c 0 t) (iblk m c 1 t) (iblk m c 3 t) (iblk m c 4 t) j
      = output (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb j)
  refine output_of_blocks_at (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) (iblk m c 3 t) (iblk m c 4 t) (t.val * 2048)
    (fun y K a b => states_block m c t y K a b) (fun y K a b => inputs_block m c t y K a b)
    (fun y k hk => logits_block m c t y k hk) (fun y => b_block m c t y) (fun y => c_block m c t y)
    j (((cfg0.win 6).blk t).view.emb j) ?_ ?_
  · show win0_6.index t (0 : Fin 2) * 2048 + 1 * (j 0).val = t.val * 2048 + (j 0).val
    rw [e0]; omega
  · show win0_6.index t (1 : Fin 2) * 128 + 1 * (j 1).val = (j 1).val
    rw [e1]; omega

end AtIdeal

/-- An index of the first result is in point `t`'s block iff each coordinate is in the block's range on its axis. -/
theorem mem_blk5 (t : Fin cfg0.N) (i : S65536x512.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v1_0).slice (win0_5.rect t)).set ↔ _
  rw [View.set_slice_whole, Rect.mem_set_unit]
  exact Iff.rfl

/-- The same for the second result. -/
theorem mem_blk6 (t : Fin cfg0.N) (i : S65536x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v1_1).slice (win0_6.rect t)).set ↔ _
  rw [View.set_slice_whole, Rect.mem_set_unit]
  exact Iff.rfl

/-- Row `r` of the first result lies in the block of point `r / 2048`. -/
theorem cover5 (i : S65536x512.Idx) : ∃ t : Fin cfg0.N, (cfg0.win 5).flush t = true ∧ i ∈ ((cfg0.win 5).blk t).view.set := by
  have hi0 : (i 0).val < 65536 := (i 0).isLt
  have hi1 : (i 1).val < 512 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1, -⟩ := idx_facts t
  refine ⟨t, flush0_5 t, ?_⟩
  rw [mem_blk5]
  intro a
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 512 ≤ (i 1).val ∧ (i 1).val < win0_5.index t (1 : Fin 2) * 512 + 512
    rw [e1]; omega

/-- Row `r` of the second result lies in the block of point `r / 2048`. -/
theorem cover6 (i : S65536x128.Idx) : ∃ t : Fin cfg0.N, (cfg0.win 6).flush t = true ∧ i ∈ ((cfg0.win 6).blk t).view.set := by
  have hi0 : (i 0).val < 65536 := (i 0).isLt
  have hi1 : (i 1).val < 128 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨-, -, -, -, -, -, -, -, -, -, -, -, e0, e1⟩ := idx_facts t
  refine ⟨t, flush0_6 t, ?_⟩
  rw [mem_blk6]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 128 ≤ (i 1).val ∧ (i 1).val < win0_6.index t (1 : Fin 2) * 128 + 128
    rw [e1]; omega

section Run

variable (m : (ℓ : Loc nD τ sig) → Buf (Elt Ideal) ℓ) (ρ : Dev nD → PrngReg)

/-- The first result array after the run is the new state of the argument arrays. -/
theorem final5 (c : Dev nD) :
    (dats m 0 c).arrAt 5 cfg0.N = stateNew (m ((c : Thread nD τ).loc main_arg0)) (m ((c : Thread nD τ).loc main_arg1)) (m ((c : Thread nD τ).loc main_arg2)) (m ((c : Thread nD τ).loc main_arg3)) :=
  (dats m 0 c).arrAt_eq_of_cover 5 (stateNew (m ((c : Thread nD τ).loc main_arg0)) (m ((c : Thread nD τ).loc main_arg1)) (m ((c : Thread nD τ).loc main_arg2)) (m ((c : Thread nD τ).loc main_arg3)))
    (fun t _ => flushed5_eq m c t) cover5

/-- The second result array after the run is the output of the argument arrays. -/
theorem final6 (c : Dev nD) :
    (dats m 0 c).arrAt 6 cfg0.N = output (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (output (m ((c : Thread nD τ).loc main_arg0)) (m ((c : Thread nD τ).loc main_arg1)) (m ((c : Thread nD τ).loc main_arg2)) (m ((c : Thread nD τ).loc main_arg3)) (m ((c : Thread nD τ).loc main_arg4)))
    (fun t _ => flushed6_eq m c t) cover6

/-- The kernel's run, read: every weakly fair execution ends with the two result arrays at the new state and the output
    of the argument arrays, and the arguments unchanged. -/
theorem run : θ_run defs (onTc (τ := τ) (main (F := Ideal))) ⟨m, fun _ => 0, ρ⟩ fun r => ∀ c : Dev nD,
      r.2.mem ((c : Thread nD τ).loc main_v1_0) = stateNew (m ((c : Thread nD τ).loc main_arg0)) (m ((c : Thread nD τ).loc main_arg1)) (m ((c : Thread nD τ).loc main_arg2)) (m ((c : Thread nD τ).loc main_arg3))
      ∧ r.2.mem ((c : Thread nD τ).loc main_v1_1) = output (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (run_blocks m ρ)

end Run

end Cert.KernelIdeal.Blocks

end
-- ==== Proof.lean ====
/-
  The certificate of one diagonal linear recurrence step: a Pallas kernel over 32 blocks of 2048 rows against its jnp
  reference, equal over the extended reals.

  Both programs compute, from the states `x` [65536, 512], the inputs `u` [65536, 128], the decay logits `a` [512] and
  the matrices `b` [128, 512] and `c` [512, 128], the new state `x' = x · softmax(a) + u b` and the output `y = x' c`
  (`Proof/Spec.lean`). The kernel's side: its body's two stored values read at an index (`Proof/Body.lean`) and the
  blocks assembled into the arrays (`Proof/Blocks.lean`); the reference's side: its run read one operation at a time
  (`Proof/RefValue.lean`). The two sides are the same terms in the same association — the maximum from −∞, the
  shifted exponentials, their sum, the quotient, the product with the state, the two contractions — so the only law
  used is `0 + s = s` for the zero accumulators, and the finiteness of the inputs is not needed. The kernel's changes
  of float format before its matrix products are the identity on extended reals; the ideal pass rewrote nothing, so
  `preserves` has no conjunct. The three frames are the generated ones (the reference's is its generated run with
  the results dropped).
-/
import proofs.«179129_j56856777064872_2_alg».proof.Defs
import proofs.«179129_j56856777064872_2_alg».proof.Proof.Gen.Kernel
import proofs.«179129_j56856777064872_2_alg».proof.Proof.Gen.Kernel.Skeleton
import proofs.«179129_j56856777064872_2_alg».proof.Proof.Gen.Kernel.Launch
import proofs.«179129_j56856777064872_2_alg».proof.Proof.Gen.Kernel.Points
import proofs.«179129_j56856777064872_2_alg».proof.Proof.Gen.Kernel.Frame
import proofs.«179129_j56856777064872_2_alg».proof.Proof.Gen.KernelIdeal
import proofs.«179129_j56856777064872_2_alg».proof.Proof.Gen.KernelIdeal.Skeleton
import proofs.«179129_j56856777064872_2_alg».proof.Proof.Gen.KernelIdeal.Launch
import proofs.«179129_j56856777064872_2_alg».proof.Proof.Gen.KernelIdeal.Points
import proofs.«179129_j56856777064872_2_alg».proof.Proof.Gen.KernelIdeal.Frame
import proofs.«179129_j56856777064872_2_alg».proof.Proof.Gen.ReferenceIdeal
import proofs.«179129_j56856777064872_2_alg».proof.Proof.Gen.Pre_finite_inputs
import proofs.«179129_j56856777064872_2_alg».proof.Proof.Gen.KernelIdeal.Value
import proofs.«179129_j56856777064872_2_alg».proof.Proof.Gen.ReferenceIdeal.Run
import proofs.«179129_j56856777064872_2_alg».proof.Proof.Gen.ReferenceIdeal.Read
import proofs.«179129_j56856777064872_2_alg».proof.Proof.Spec
import proofs.«179129_j56856777064872_2_alg».proof.Proof.RefValue
import proofs.«179129_j56856777064872_2_alg».proof.Proof.Body
import proofs.«179129_j56856777064872_2_alg».proof.Proof.Blocks
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The kernel's two result arrays end at the new state and the output of its argument arrays (`Blocks.run`), the
    reference's at the same functions of its own (`RefValue.state_eq`, `RefValue.output_eq`), and the arguments agree. -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2⟩
  · rw [Cert.ReferenceIdeal.Read.val_main_v14_eq, Cert.ReferenceIdeal.RefValue.state_eq, a0, a1, a2, a3]
  · rw [Cert.ReferenceIdeal.Read.val_main_v15_eq, Cert.ReferenceIdeal.RefValue.output_eq, a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
